-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageSpec.lean ====
/-
  One GraphSAGE layer on the extended reals, row by row.

  A node's new feature vector depends on two rows of 64 numbers — the mean `a` of its in-neighbours' features and its own
  features `x` — and on the layer's two 64 x 64 weight matrices and its bias: entry `q` of the affine part is
  `(∑ₖ a k * Wl (q, k) + β q) + ∑ₖ x k * Wr (q, k)`, i.e. `a · Wlᵀ + β + x · Wrᵀ`. The first layer clamps it below at
  zero; the second divides it by the row's Euclidean norm, the norm clamped below at a small positive constant.

  The mean itself is the neighbour sum scaled by the clamped in-degree `d = max deg 1`: once as a product with the
  reciprocal `1 / d`, once as a quotient by `d`. On the extended reals these agree as soon as `d ≠ 0`, because the
  quotient by a nonzero `d` IS the product with `d⁻¹`, at the infinities too: no finiteness is needed.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Sage

open Idealize.ShloMosaic Idealize.ShloMosaic.ValueIdx

/-- An `n x k` array of extended reals. -/
abbrev Mat (n k : ℕ) : Type := (⟨2, ![n, k]⟩ : Shape).Idx → EReal
/-- A length-`n` vector of extended reals. -/
abbrev Vct (n : ℕ) : Type := (⟨1, ![n]⟩ : Shape).Idx → EReal

/-- Row `p` of an `n x 64` array. -/
def row {n : ℕ} (A : Mat n 64) (p : Fin n) : Fin 64 → EReal := fun k => A (ix2 p k)

/-- Entry `q` of `a · Wlᵀ + β + x · Wrᵀ`. -/
def affRow (a x : Fin 64 → EReal) (Wl Wr : Mat 64 64) (β : Fin 64 → EReal) (q : Fin 64) : EReal :=
  ((∑ k : Fin 64, a k * Wl (ix2 q k)) + β q) + ∑ k : Fin 64, x k * Wr (ix2 q k)

/-- The first layer's entry: the affine part clamped below at zero. -/
def reluRow (a x : Fin 64 → EReal) (Wl Wr : Mat 64 64) (β : Fin 64 → EReal) (q : Fin 64) : EReal :=
  max (affRow a x Wl Wr β q) (Ideal.ofBits .f32 0x00000000#32)

/-- The second layer's entry: the affine part divided by its row's norm, the norm clamped below. -/
def normRow (a x : Fin 64 → EReal) (Wl Wr : Mat 64 64) (β : Fin 64 → EReal) (q : Fin 64) : EReal :=
  Ideal.div (affRow a x Wl Wr β q)
    (max (Ideal.sqrt (∑ k : Fin 64, affRow a x Wl Wr β k * affRow a x Wl Wr β k)) (Ideal.ofBits .f32 0x2B8CBCCC#32))

/-- The first layer over all rows of the aggregated array `A` and the feature array `X`. -/
def reluLayer {n : ℕ} (A X : Mat n 64) (Wl Wr : Mat 64 64) (β : Fin 64 → EReal) : Mat n 64 :=
  fun i => reluRow (row A (i 0)) (row X (i 0)) Wl Wr β (i 1)

/-- The second layer over all rows. -/
def normLayer {n : ℕ} (A X : Mat n 64) (Wl Wr : Mat 64 64) (β : Fin 64 → EReal) : Mat n 64 :=
  fun i => normRow (row A (i 0)) (row X (i 0)) Wl Wr β (i 1)

theorem reluLayer_ix2 {n : ℕ} (A X : Mat n 64) (Wl Wr : Mat 64 64) (β : Fin 64 → EReal) (p : Fin n) (q : Fin 64) :
    reluLayer A X Wl Wr β (ix2 p q) = reluRow (row A p) (row X p) Wl Wr β q := rfl

theorem normLayer_ix2 {n : ℕ} (A X : Mat n 64) (Wl Wr : Mat 64 64) (β : Fin 64 → EReal) (p : Fin n) (q : Fin 64) :
    normLayer A X Wl Wr β (ix2 p q) = normRow (row A p) (row X p) Wl Wr β q := rfl

/-! ## The mean: a product with the reciprocal, or a quotient -/

/-- The neighbour sums scaled by the reciprocal of a per-row divisor. -/
def meanRecip {n : ℕ} (S : Mat n 64) (d : Vct n) : Mat n 64 :=
  fun i => S i * Ideal.div (Ideal.ofBits .f32 0x3F800000#32) (d (ix1 (i 0)))

/-- The neighbour sums divided by a per-row divisor. -/
def meanDiv {n : ℕ} (S : Mat n 64) (d : Vct n) : Mat n 64 :=
  fun i => Ideal.div (S i) (d (ix1 (i 0)))

/-- The in-degree clamped below at one. -/
def clampDeg {n : ℕ} (deg : Vct n) : Vct n := fun j => max (deg j) (Ideal.ofBits .f32 0x3F800000#32)

/-- The word `0x3F800000` denotes the number one. -/
theorem one_f32 : Ideal.ofBits .f32 0x3F800000#32 = 1 := IdealRules.sign_bit.ideal_onePat .f32

/-- A clamped degree is at least one, so it is not zero. -/
theorem clampDeg_ne_zero {n : ℕ} (deg : Vct n) (j : (⟨1, ![n]⟩ : Shape).Idx) : clampDeg deg j ≠ 0 := by
  unfold clampDeg
  rw [one_f32]
  exact ne_of_gt (lt_of_lt_of_le zero_lt_one (le_max_right _ _))

/-- Dividing by a nonzero `d` is multiplying by `1 / d`, whatever the dividend (an infinity included). -/
theorem mul_recip_eq_div (s d : EReal) (hd : d ≠ 0) : s * Ideal.div 1 d = Ideal.div s d := by
  unfold Ideal.div
  rw [if_neg hd, if_neg hd, one_mul]

/-- The two spellings of the mean agree when no divisor is zero. -/
theorem meanRecip_eq_meanDiv {n : ℕ} (S : Mat n 64) (d : Vct n) (hd : ∀ j, d j ≠ 0) : meanRecip S d = meanDiv S d := by
  funext i
  unfold meanRecip meanDiv
  rw [one_f32]
  exact mul_recip_eq_div _ _ (hd _)

end Cert.Sage

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What one grid step of each layer's kernel stores, as a function of the five blocks it loads: a block of 5000 rows of
  the aggregated array and of the feature array, the two 64 x 64 weight matrices and the 1 x 64 bias row.

  Rounding an operand to a shorter float format is the identity on the extended reals, so each matrix product (both
  contract the second axis of both operands: rows against rows) reads at (p, q) as the plain sum
  `∑ₖ block (p, k) * W (q, k)`; the bias row is repeated down the rows. The first layer clamps the affine part at zero.
  The second squares it, sums the squares along each row, lays the sums out as a column, takes the square root, clamps
  it below, repeats the column across the lanes and divides: the row-normalised affine part.
-/
import proofs.«177494_j11819749998735_1_alg».proof.Proof.Gen.KernelIdeal.Skeleton
import proofs.«177494_j11819749998735_1_alg».proof.Proof.SageSpec
import proofs.«177494_j11819749998735_1_alg».proof.Proof.LibRowOps
import proofs.«177494_j11819749998735_1_alg».proof.Proof.LibRowSum
import proofs.«177494_j11819749998735_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage

/-- A rows-against-rows product of a 5000 x 64 block with a 64 x 64 matrix, into the zero accumulator, at (p, q). -/
theorem product_apply (x : Vec Ideal S5000x64 .f32) (w : Vec Ideal S64x64 .f32) (p : Fin 5000) (q : Fin 64) :
    matmul dot_S5000x64_S64x64_S5000x64_1_1_0_0_n_n none (truncf .bf16 x bitsLt_bf16_f32) (truncf .bf16 w bitsLt_bf16_f32)
        (constant (F := Ideal) S5000x64 .f32 0x00000000#32) (ix2 p q)
      = ∑ k : Fin 64, row x p k * w (ix2 q k) :=
  Cert.LibRowOps.matmul_zero_rows_ix2 dot_S5000x64_S64x64_S5000x64_1_1_0_0_n_n rfl rfl rfl rfl rfl rfl none
    (truncf .bf16 x bitsLt_bf16_f32) (truncf .bf16 w bitsLt_bf16_f32) p q

/-- The affine part `agg · Wlᵀ + bias + x · Wrᵀ` as both bodies compute it, at (p, q). -/
theorem affine_apply (x0 x1 : Vec Ideal S5000x64 .f32) (w2 w4 : Vec Ideal S64x64 .f32) (b3 : Vec Ideal S1x64 .f32)
    (p : Fin 5000) (q : Fin 64) :
    addf (addf (matmul dot_S5000x64_S64x64_S5000x64_1_1_0_0_n_n none (truncf .bf16 x0 bitsLt_bf16_f32) (truncf .bf16 w2 bitsLt_bf16_f32)
          (constant (F := Ideal) S5000x64 .f32 0x00000000#32))
        (broadcastTo S5000x64 b3 broadcasts_S1x64_S5000x64))
      (matmul dot_S5000x64_S64x64_S5000x64_1_1_0_0_n_n none (truncf .bf16 x1 bitsLt_bf16_f32) (truncf .bf16 w4 bitsLt_bf16_f32)
          (constant (F := Ideal) S5000x64 .f32 0x00000000#32)) (ix2 p q)
      = affRow (row x0 p) (row x1 p) w2 w4 (fun q => b3 (ix2 (0 : Fin 1) q)) q := by
  rw [addf_apply, addf_apply, product_apply, product_apply, broadcastTo_1b_ab_apply]
  rfl

/-- The first layer's stored block. -/
theorem pay0_eq (x0 x1 : Vec Ideal S5000x64 .f32) (w2 w4 : Vec Ideal S64x64 .f32) (b3 : Vec Ideal S1x64 .f32) :
    k0_pay1 x0 x1 w2 w4 b3 = reluLayer (n := 5000) x0 x1 w2 w4 (fun q => b3 (ix2 (0 : Fin 1) q)) := by
  funext j
  obtain ⟨p, q, rfl⟩ : ∃ (p : Fin 5000) (q : Fin 64), j = ix2 p q := ⟨j 0, j 1, eq_ix2 j⟩
  rw [reluLayer_ix2]
  unfold k0_pay1 reluRow
  simp only [shapeCast_self]
  rw [maximumf_apply, affine_apply]
  rfl

/-- The row norms of a block `y`, clamped below and repeated across the lanes, at (p, q): the square root of the sum
    of the squares of row `p`, or the small constant if that is larger. -/
theorem rownorm_apply (y : FVec Ideal S5000x64 .f32) (p : Fin 5000) (q : Fin 64) :
    broadcastTo S5000x64
        (maximumf (sqrt (shapeCast S5000x1 (multiReduction .add [1] S5000 (mulf y y) 0x00000000#32 reduces_S5000x64_S5000 (.inl rfl) rfl)
            shapeCasts_S5000_S5000x1))
          (broadcast S5000x1 (Scalar.ofBits .f32 0x2B8CBCCC#32)))
        broadcasts_S5000x1_S5000x64 (ix2 p q)
      = max (Ideal.sqrt (∑ k : Fin 64, y (ix2 p k) * y (ix2 p k))) (Ideal.ofBits .f32 0x2B8CBCCC#32) := by
  rw [Cert.LibColumn.broadcastTo_a1_ab_apply, maximumf_apply]
  show max (Ideal.sqrt (shapeCast S5000x1 _ shapeCasts_S5000_S5000x1 (ix2 p (0 : Fin 1)))) _ = _
  rw [Cert.LibColumn.shapeCast_a_a1_apply]
  refine congrArg (fun s => max (Ideal.sqrt s) (Ideal.ofBits .f32 0x2B8CBCCC#32)) ?_
  exact Cert.LibRowSum.multiReduction_add_lanes_apply (mulf y y) 0x00000000#32 reduces_S5000x64_S5000 (.inl rfl) rfl p

/-- The second layer's stored block. -/
theorem pay1_eq (x0 x1 : Vec Ideal S5000x64 .f32) (w2 w4 : Vec Ideal S64x64 .f32) (b3 : Vec Ideal S1x64 .f32) :
    k1_pay1 x0 x1 w2 w4 b3 = normLayer (n := 5000) x0 x1 w2 w4 (fun q => b3 (ix2 (0 : Fin 1) q)) := by
  funext j
  obtain ⟨p, q, rfl⟩ : ∃ (p : Fin 5000) (q : Fin 64), j = ix2 p q := ⟨j 0, j 1, eq_ix2 j⟩
  rw [normLayer_ix2]
  unfold k1_pay1 normRow
  simp only [shapeCast_self]
  rw [divf_apply, rownorm_apply]
  simp only [affine_apply]

end Cert.KernelIdeal.Body

end
-- ==== Proof.Blocks.lean ====
/-
  From blocks to arrays. Each layer's kernel runs over twenty grid steps; step `t` loads rows `5000 t … 5000 t + 4999` of
  the aggregated array and of the feature array, the whole weight matrices and the whole bias row, and writes back rows
  `5000 t … 5000 t + 4999` of the result. A row of the result depends only on the same row of the two row-blocked
  operands, so block `t` of the result is block `t` of ONE whole-array function of the operand arrays — the layer of
  the specification at 100000 rows — and since the twenty blocks cover the result array, the array ends holding that
  function. Everything here is stated at the contents `V` the launch finds, whatever they are.
-/
import proofs.«177494_j11819749998735_1_alg».proof.Proof.Gen.KernelIdeal.Frame
import proofs.«177494_j11819749998735_1_alg».proof.Proof.Payload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Cert.Sage
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer's launch -/

/-- The index maps over the grid: the three row-blocked windows are at block `t` of their array at step `t`, the
    weights and the bias at their only block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 20 := lt_of_lt_of_eq t.isLt N_0

/-- Row `p` of the aggregated array's block at step `t` is row `5000 t + p` of the array. -/
theorem blk0_0_row (c : Dev nD) (t : Fin cfg0.N) (p : Fin 5000) (r : Fin 100000) (hr : r.val = 5000 * t.val + p.val) :
    row (n := 5000) (iblk0 V c 0 t) p = row (n := 100000) (V c main_v24) r := by
  funext k
  show V c main_v24 (((cfg0.win 0).blk t).view.emb (ix2 p k)) = V c main_v24 (ix2 r k)
  refine congrArg _ (funext fun a => Fin.ext ?_)
  obtain ⟨e0, e1, -⟩ := idx_facts0 t
  match a with
  | ⟨0, _⟩ => show win0_0.index t (0 : Fin 2) * 5000 + 1 * p.val = r.val; omega
  | ⟨1, _⟩ => show win0_0.index t (1 : Fin 2) * 64 + 1 * k.val = k.val; omega

/-- The same for the feature array's block. -/
theorem blk0_1_row (c : Dev nD) (t : Fin cfg0.N) (p : Fin 5000) (r : Fin 100000) (hr : r.val = 5000 * t.val + p.val) :
    row (n := 5000) (iblk0 V c 1 t) p = row (n := 100000) (V c main_arg0) r := by
  funext k
  show V c main_arg0 (((cfg0.win 1).blk t).view.emb (ix2 p k)) = V c main_arg0 (ix2 r k)
  refine congrArg _ (funext fun a => Fin.ext ?_)
  obtain ⟨-, -, e0, e1, -⟩ := idx_facts0 t
  match a with
  | ⟨0, _⟩ => show win0_1.index t (0 : Fin 2) * 5000 + 1 * p.val = r.val; omega
  | ⟨1, _⟩ => show win0_1.index t (1 : Fin 2) * 64 + 1 * k.val = k.val; omega

/-- The weight applied to the aggregated rows is loaded whole at every step. -/
theorem blk0_2 (c : Dev nD) (t : Fin cfg0.N) : (iblk0 V c 2 t : Mat 64 64) = V c main_arg1 := by
  funext y
  show V c main_arg1 (((cfg0.win 2).blk t).view.emb y) = V c main_arg1 y
  refine congrArg _ (funext fun a => Fin.ext ?_)
  obtain ⟨-, -, -, -, e0, e1, -⟩ := idx_facts0 t
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- So is the bias row. -/
theorem blk0_3 (c : Dev nD) (t : Fin cfg0.N) (q : Fin 64) :
    iblk0 V c 3 t (ix2 (0 : Fin 1) q) = V c main_v25 (ix2 (0 : Fin 1) q) := by
  show V c main_v25 (((cfg0.win 3).blk t).view.emb (ix2 (0 : Fin 1) q)) = V c main_v25 (ix2 (0 : Fin 1) q)
  refine congrArg _ (funext fun a => Fin.ext ?_)
  obtain ⟨-, -, -, -, -, -, e0, e1, -⟩ := idx_facts0 t
  match a with
  | ⟨0, _⟩ => show win0_3.index t (0 : Fin 2) * 1 + 1 * 0 = 0; omega
  | ⟨1, _⟩ => show win0_3.index t (1 : Fin 2) * 64 + 1 * q.val = q.val; omega

/-- And the weight applied to the node's own row. -/
theorem blk0_4 (c : Dev nD) (t : Fin cfg0.N) : (iblk0 V c 4 t : Mat 64 64) = V c main_arg3 := by
  funext y
  show V c main_arg3 (((cfg0.win 4).blk t).view.emb y) = V c main_arg3 y
  refine congrArg _ (funext fun a => Fin.ext ?_)
  obtain ⟨-, -, -, -, -, -, -, -, e0, e1, -⟩ := idx_facts0 t
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The whole array the first layer leaves: the clamped affine layer of the arrays as the launch finds them. -/
abbrev hidden (c : Dev nD) : Mat 100000 64 :=
  reluLayer (n := 100000) (V c main_v24) (V c main_arg0) (V c main_arg1) (V c main_arg3) (fun q => V c main_v25 (ix2 (0 : Fin 1) q))

/-- What step `t` writes back is block `t` of that array. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [Body.pay0_eq]
  funext j
  obtain ⟨p, q, rfl⟩ : ∃ (p : Fin 5000) (q : Fin 64), j = ix2 p q := ⟨j 0, j 1, eq_ix2 j⟩
  have ht := lt0 t
  have he : ((cfg0.win 5).blk t).view.emb (ix2 p q) = ix2 (⟨5000 * t.val + p.val, by omega⟩ : Fin 100000) q :=
    funext fun a => Fin.ext (by
      obtain ⟨-, -, -, -, -, -, -, -, -, -, e0, e1⟩ := idx_facts0 t
      match a with
      | ⟨0, _⟩ => show win0_5.index t (0 : Fin 2) * 5000 + 1 * p.val = 5000 * t.val + p.val; omega
      | ⟨1, _⟩ => show win0_5.index t (1 : Fin 2) * 64 + 1 * q.val = q.val; omega)
  show reluLayer (n := 5000) (iblk0 V c 0 t) (iblk0 V c 1 t) (iblk0 V c 2 t) (iblk0 V c 4 t) (fun q => iblk0 V c 3 t (ix2 (0 : Fin 1) q)) (ix2 p q)
    = reluLayer (n := 100000) (V c main_v24) (V c main_arg0) (V c main_arg1) (V c main_arg3) (fun q => V c main_v25 (ix2 (0 : Fin 1) q))
        (((cfg0.win 5).blk t).view.emb (ix2 p q))
  rw [he, reluLayer_ix2, reluLayer_ix2, blk0_0_row V c t p ⟨5000 * t.val + p.val, by omega⟩ rfl, blk0_1_row V c t p ⟨5000 * t.val + p.val, by omega⟩ rfl, blk0_2, blk0_4]
  simp only [blk0_3]

/-- An index of the output array is in step `t`'s block iff each coordinate is in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- The twenty blocks of 5000 rows cover the array: row `r` is in block `r / 5000`. -/
theorem cover0 (i : S100000x64.Idx) : ∃ t : Fin cfg0.N, (cfg0.win 5).flush t = true ∧ i ∈ ((cfg0.win 5).blk t).view.set := by
  have h0 : (i 0).val < 100000 := (i 0).isLt
  have h1 : (i 1).val < 64 := (i 1).isLt
  refine ⟨⟨(i 0).val / 5000, by rw [show cfg0.N = 20 from N_0]; omega⟩, flush0_5 _, ?_⟩
  rw [mem_blk0]
  obtain ⟨-, -, -, -, -, -, -, -, -, -, e0, e1⟩ := idx_facts0 ⟨(i 0).val / 5000, by rw [show cfg0.N = 20 from N_0]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- After the first launch its output array holds the clamped affine layer of the arrays the launch found. -/
theorem final0 (c : Dev nD) : (dat0 V c).arrAt 5 cfg0.N = hidden V c :=
  (dat0 V c).arrAt_eq_of_cover 5 (hidden V c) (fun t _ => flushed0 V c t) cover0

/-! ## The second layer's launch -/

/-- The index maps over the grid: the three row-blocked windows are at block `t` of their array at step `t`, the
    weights and the bias at their only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 20 := lt_of_lt_of_eq t.isLt N_1

/-- Row `p` of the aggregated array's block at step `t` is row `5000 t + p` of the array. -/
theorem blk1_0_row (c : Dev nD) (t : Fin cfg1.N) (p : Fin 5000) (r : Fin 100000) (hr : r.val = 5000 * t.val + p.val) :
    row (n := 5000) (iblk1 V c 0 t) p = row (n := 100000) (V c main_v38) r := by
  funext k
  show V c main_v38 (((cfg1.win 0).blk t).view.emb (ix2 p k)) = V c main_v38 (ix2 r k)
  refine congrArg _ (funext fun a => Fin.ext ?_)
  obtain ⟨e0, e1, -⟩ := idx_facts1 t
  match a with
  | ⟨0, _⟩ => show win1_0.index t (0 : Fin 2) * 5000 + 1 * p.val = r.val; omega
  | ⟨1, _⟩ => show win1_0.index t (1 : Fin 2) * 64 + 1 * k.val = k.val; omega

/-- The same for the feature array's block. -/
theorem blk1_1_row (c : Dev nD) (t : Fin cfg1.N) (p : Fin 5000) (r : Fin 100000) (hr : r.val = 5000 * t.val + p.val) :
    row (n := 5000) (iblk1 V c 1 t) p = row (n := 100000) (V c main_v26) r := by
  funext k
  show V c main_v26 (((cfg1.win 1).blk t).view.emb (ix2 p k)) = V c main_v26 (ix2 r k)
  refine congrArg _ (funext fun a => Fin.ext ?_)
  obtain ⟨-, -, e0, e1, -⟩ := idx_facts1 t
  match a with
  | ⟨0, _⟩ => show win1_1.index t (0 : Fin 2) * 5000 + 1 * p.val = r.val; omega
  | ⟨1, _⟩ => show win1_1.index t (1 : Fin 2) * 64 + 1 * k.val = k.val; omega

/-- The weight applied to the aggregated rows is loaded whole at every step. -/
theorem blk1_2 (c : Dev nD) (t : Fin cfg1.N) : (iblk1 V c 2 t : Mat 64 64) = V c main_arg4 := by
  funext y
  show V c main_arg4 (((cfg1.win 2).blk t).view.emb y) = V c main_arg4 y
  refine congrArg _ (funext fun a => Fin.ext ?_)
  obtain ⟨-, -, -, -, e0, e1, -⟩ := idx_facts1 t
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- So is the bias row. -/
theorem blk1_3 (c : Dev nD) (t : Fin cfg1.N) (q : Fin 64) :
    iblk1 V c 3 t (ix2 (0 : Fin 1) q) = V c main_v39 (ix2 (0 : Fin 1) q) := by
  show V c main_v39 (((cfg1.win 3).blk t).view.emb (ix2 (0 : Fin 1) q)) = V c main_v39 (ix2 (0 : Fin 1) q)
  refine congrArg _ (funext fun a => Fin.ext ?_)
  obtain ⟨-, -, -, -, -, -, e0, e1, -⟩ := idx_facts1 t
  match a with
  | ⟨0, _⟩ => show win1_3.index t (0 : Fin 2) * 1 + 1 * 0 = 0; omega
  | ⟨1, _⟩ => show win1_3.index t (1 : Fin 2) * 64 + 1 * q.val = q.val; omega

/-- And the weight applied to the node's own row. -/
theorem blk1_4 (c : Dev nD) (t : Fin cfg1.N) : (iblk1 V c 4 t : Mat 64 64) = V c main_arg6 := by
  funext y
  show V c main_arg6 (((cfg1.win 4).blk t).view.emb y) = V c main_arg6 y
  refine congrArg _ (funext fun a => Fin.ext ?_)
  obtain ⟨-, -, -, -, -, -, -, -, e0, e1, -⟩ := idx_facts1 t
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The whole array the second layer leaves: the row-normalised affine layer of the arrays as the launch finds them. -/
abbrev output (c : Dev nD) : Mat 100000 64 :=
  normLayer (n := 100000) (V c main_v38) (V c main_v26) (V c main_arg4) (V c main_arg6) (fun q => V c main_v39 (ix2 (0 : Fin 1) q))

/-- What step `t` writes back is block `t` of that array. -/
theorem flushed1 (c : Dev nD) (t : Fin cfg1.N) :
    (dat1 V c).flushed 5 t = ((cfg1.win 5).blk t).view.read (Elt Ideal) (output V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [Body.pay1_eq]
  funext j
  obtain ⟨p, q, rfl⟩ : ∃ (p : Fin 5000) (q : Fin 64), j = ix2 p q := ⟨j 0, j 1, eq_ix2 j⟩
  have ht := lt1 t
  have he : ((cfg1.win 5).blk t).view.emb (ix2 p q) = ix2 (⟨5000 * t.val + p.val, by omega⟩ : Fin 100000) q :=
    funext fun a => Fin.ext (by
      obtain ⟨-, -, -, -, -, -, -, -, -, -, e0, e1⟩ := idx_facts1 t
      match a with
      | ⟨0, _⟩ => show win1_5.index t (0 : Fin 2) * 5000 + 1 * p.val = 5000 * t.val + p.val; omega
      | ⟨1, _⟩ => show win1_5.index t (1 : Fin 2) * 64 + 1 * q.val = q.val; omega)
  show normLayer (n := 5000) (iblk1 V c 0 t) (iblk1 V c 1 t) (iblk1 V c 2 t) (iblk1 V c 4 t) (fun q => iblk1 V c 3 t (ix2 (0 : Fin 1) q)) (ix2 p q)
    = normLayer (n := 100000) (V c main_v38) (V c main_v26) (V c main_arg4) (V c main_arg6) (fun q => V c main_v39 (ix2 (0 : Fin 1) q))
        (((cfg1.win 5).blk t).view.emb (ix2 p q))
  rw [he, normLayer_ix2, normLayer_ix2, blk1_0_row V c t p ⟨5000 * t.val + p.val, by omega⟩ rfl, blk1_1_row V c t p ⟨5000 * t.val + p.val, by omega⟩ rfl, blk1_2, blk1_4]
  simp only [blk1_3]

/-- An index of the output array is in step `t`'s block iff each coordinate is in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- The twenty blocks of 5000 rows cover the array: row `r` is in block `r / 5000`. -/
theorem cover1 (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  refine ⟨⟨(i 0).val / 5000, by rw [show cfg1.N = 20 from N_1]; omega⟩, flush1_5 _, ?_⟩
  rw [mem_blk1]
  obtain ⟨-, -, -, -, -, -, -, -, -, -, e0, e1⟩ := idx_facts1 ⟨(i 0).val / 5000, by rw [show cfg1.N = 20 from N_1]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- After the second launch its output array holds the row-normalised affine layer of the arrays the launch found. -/
theorem final1 (c : Dev nD) : (dat1 V c).arrAt 5 cfg1.N = output V c :=
  (dat1 V c).arrAt_eq_of_cover 5 (output V c) (fun t _ => flushed1 V c t) cover1

end Cert.KernelIdeal.Blocks

end
-- ==== Proof.HostOps.lean ====
/-
  The host operations around the two launches, each stretch as ONE function of what it reads.

  From the edge list `e` (two rows of 1600000 node numbers) the program takes the source row and the target row. The
  neighbour sum of a feature array `x` gathers, for every edge, the row of `x` at the edge's source (a negative number
  counted from the end, as array indexing does) and adds it into the row of the edge's target, starting from zeros. The
  in-degree adds a one per edge at the edge's target. The reciprocal column is `1 / max(degree, 1)`, one entry per
  node; the mean is the neighbour sum times that column repeated across the 64 lanes.
-/
import proofs.«177494_j11819749998735_1_alg».proof.Proof.Gen.KernelIdeal
import Idealize.ShloMosaic.PureOps.Ideal

noncomputable section

namespace Cert.KernelIdeal.HostOps

open Cert.KernelIdeal Cert.KernelIdeal.Gen Idealize.ShloMosaic

/-- The edge list. -/
abbrev Edges : Type := (⟨S2x1600000, .i32⟩ : BufTy).Contents (Elt Ideal)
/-- One row of it: a node number per edge. -/
abbrev Ends : Type := (⟨S1600000, .i32⟩ : BufTy).Contents (Elt Ideal)
/-- A feature array: 64 numbers per node. -/
abbrev Feat : Type := (⟨S100000x64, .f32⟩ : BufTy).Contents (Elt Ideal)
/-- A number per node. -/
abbrev PerNode : Type := (⟨S100000, .f32⟩ : BufTy).Contents (Elt Ideal)
/-- The same as a column. -/
abbrev PerNodeCol : Type := (⟨S100000x1, .f32⟩ : BufTy).Contents (Elt Ideal)

/-- The edges' sources. -/
def srcOf (e : Edges) : Ends :=
  shapeCast _ (extractStridedSlice S1x1600000 ![0, 0] e slices_S2x1600000_S1x1600000_0_0) shapeCasts_S1x1600000_S1600000

/-- The edges' targets. -/
def dstOf (e : Edges) : Ends :=
  shapeCast _ (extractStridedSlice S1x1600000 ![1, 0] e slices_S2x1600000_S1x1600000_1_0) shapeCasts_S1x1600000_S1600000

/-- For every node, the sum of the rows of `x` at the sources of the edges that point at it. -/
def nbrSum (x : Feat) (s d : Ends) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- For every node, the number of edges that point at it. -/
def degree (d : Ends) : PerNode :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The in-degree clamped below at one. -/
def clamped (d : Ends) : PerNode :=
  maximumf (F := Ideal) (degree d) (broadcastInDim S100000 ![] bcast_S_S100000 (constant (F := Ideal) S_ .f32 0x3F800000#32))

/-- One over it, as a column. -/
def recipCol (d : Ends) : PerNodeCol :=
  broadcastInDim S100000x1 ![0] bcast_S100000_S100000x1_0
    (Host.divf (F := Ideal) (broadcastInDim S100000 ![] bcast_S_S100000 (constant (F := Ideal) S_ .f32 0x3F800000#32)) (clamped d))

/-- The neighbour sum times a per-node column repeated across the lanes. -/
def scaled (x : Feat) (s d : Ends) (rc : PerNodeCol) : Feat :=
  mulf (F := Ideal) (φ := .f32) (nbrSum x s d) (broadcastInDim S100000x64 ![0, 1] bcast_S100000x1_S100000x64_0_1 rc)

/-- A bias vector laid out as one row. -/
def biasRow (b : (⟨S64, .f32⟩ : BufTy).Contents (Elt Ideal)) : (⟨S1x64, .f32⟩ : BufTy).Contents (Elt Ideal) :=
  shapeCast _ b shapeCasts_S64_S1x64

end Cert.KernelIdeal.HostOps

end
-- ==== Proof.HostRead.lean ====
/-
  What the buffers hold between the stretches of the program, read back to the arguments.

  Before the first launch the host operations leave the edges' sources and targets, the reciprocal in-degree column, the
  first mean (the neighbour sum of the input features scaled by that column) and the first bias laid out as a row; the
  argument arrays are untouched. The first launch changes only its output array. The host operations between the
  launches compute the second mean from that output, with the same sources, targets and column, and lay out the second
  bias; the second launch's output is the program's result.
-/
import proofs.«177494_j11819749998735_1_alg».proof.Proof.Gen.KernelIdeal.Frame
import proofs.«177494_j11819749998735_1_alg».proof.Proof.HostOps
import Idealize.ShloMosaic.Lib.StableHlo.Run

set_option maxRecDepth 16384

noncomputable section

namespace Cert.KernelIdeal.HostRead

open Cert.KernelIdeal Cert.KernelIdeal.Gen Cert.KernelIdeal.HostOps
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first launch -/

theorem W1_v1 (c : Dev nD) : W1 m ρ c (Proc.devRef .tc main_v1) = srcOf (m ((c : Thread nD τ).loc main_arg7)) := by
  show StableHlo.after hostOps0 (W0 m ρ c) (Proc.devRef .tc main_v1) = _
  dsimp only [hostOps0]
  after_results_simp
  rfl

theorem W1_v3 (c : Dev nD) : W1 m ρ c (Proc.devRef .tc main_v3) = dstOf (m ((c : Thread nD τ).loc main_arg7)) := by
  show StableHlo.after hostOps0 (W0 m ρ c) (Proc.devRef .tc main_v3) = _
  dsimp only [hostOps0]
  after_results_simp
  rfl

theorem W1_v12 (c : Dev nD) : W1 m ρ c (Proc.devRef .tc main_v12) = recipCol (dstOf (m ((c : Thread nD τ).loc main_arg7))) := by
  show StableHlo.after hostOps0 (W0 m ρ c) (Proc.devRef .tc main_v12) = _
  dsimp only [hostOps0]
  after_results_simp
  rfl

theorem W1_v24 (c : Dev nD) : W1 m ρ c (Proc.devRef .tc main_v24)
    = scaled (m ((c : Thread nD τ).loc main_arg0)) (srcOf (m ((c : Thread nD τ).loc main_arg7))) (dstOf (m ((c : Thread nD τ).loc main_arg7)))
        (recipCol (dstOf (m ((c : Thread nD τ).loc main_arg7)))) := by
  show StableHlo.after hostOps0 (W0 m ρ c) (Proc.devRef .tc main_v24) = _
  dsimp only [hostOps0]
  after_results_simp
  rfl

theorem W1_v25 (c : Dev nD) : W1 m ρ c (Proc.devRef .tc main_v25) = biasRow (m ((c : Thread nD τ).loc main_arg2)) := by
  show StableHlo.after hostOps0 (W0 m ρ c) (Proc.devRef .tc main_v25) = _
  dsimp only [hostOps0]
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp

theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results_simp

theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp

theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp

/-! ## Between the launches -/

/-- What the second stretch of host operations leaves in the second mean's buffer, from the contents `W` it starts at. -/
theorem after1_v38 (W : Valuation τ sig (Elt Ideal)) :
    StableHlo.after hostOps1 W (Proc.devRef .tc main_v38)
      = scaled (W (Proc.devRef .tc main_v26)) (W (Proc.devRef .tc main_v1)) (W (Proc.devRef .tc main_v3)) (W (Proc.devRef .tc main_v12)) := by
  dsimp only [hostOps1]
  after_results_simp
  rfl

theorem after1_v39 (W : Valuation τ sig (Elt Ideal)) :
    StableHlo.after hostOps1 W (Proc.devRef .tc main_v39) = biasRow (W (Proc.devRef .tc main_arg5)) := by
  dsimp only [hostOps1]
  after_results_simp
  rfl

theorem after1_v26 (W : Valuation τ sig (Elt Ideal)) :
    StableHlo.after hostOps1 W (Proc.devRef .tc main_v26) = W (Proc.devRef .tc main_v26) := by
  dsimp only [hostOps1]
  after_results_simp

theorem after1_arg4 (W : Valuation τ sig (Elt Ideal)) :
    StableHlo.after hostOps1 W (Proc.devRef .tc main_arg4) = W (Proc.devRef .tc main_arg4) := by
  dsimp only [hostOps1]
  after_results_simp

theorem after1_arg6 (W : Valuation τ sig (Elt Ideal)) :
    StableHlo.after hostOps1 W (Proc.devRef .tc main_arg6) = W (Proc.devRef .tc main_arg6) := by
  dsimp only [hostOps1]
  after_results_simp

end Cert.KernelIdeal.HostRead

end
-- ==== Proof.KernelRun.lean ====
/-
  The whole program's run with its result named. The program is four stretches in order: host operations, the first
  layer's launch, host operations, the second layer's launch. The run below is the frame run of these four stretches
  with one more thing read off its last state: the result array, which like every other unscoped buffer ends at the
  contents the last stretch leaves (the fold `W4` through the program). The argument arrays end as launched.
-/
import proofs.«177494_j11819749998735_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last stretch's contents and
    the argument arrays as launched. -/
theorem run_out : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.MeanForms.lean ====
/-
  The two layers as functions of the argument arrays, and the program's mean read entry by entry: the neighbour sum times the reciprocal in-degree column repeated across the
  lanes is, at (p, k), the neighbour sum's entry times `1 / max(degree p, 1)`; and a bias laid out as a row reads, at
  column `q`, its entry `q`.
-/
import proofs.«177494_j11819749998735_1_alg».proof.Proof.HostOps
import proofs.«177494_j11819749998735_1_alg».proof.Proof.SageSpec
import Idealize.ShloMosaic.Lib.Pipeline.Value
import Idealize.ShloMosaic.Lib.ValueIdx
import Idealize.ShloMosaic.Lib.ValueLayout

noncomputable section

namespace Cert.KernelIdeal.MeanForms

open Cert.KernelIdeal Cert.KernelIdeal.Gen Cert.KernelIdeal.HostOps Idealize.ShloMosaic Idealize.ShloMosaic.ValueIdx Cert.Sage

/-- A per-node vector laid out as a column reads, at row `p`, its entry `p`. -/
theorem column_apply (y : PerNode) (p : Fin 100000) :
    broadcastInDim S100000x1 ![0] bcast_S100000_S100000x1_0 y (ix2 p (0 : Fin 1)) = y (ix1 p) :=
  broadcastInDim_apply _ bcast_S100000_S100000x1_0 y (ix2 p (0 : Fin 1)) (ix1 p) (fun a => match a with
    | ⟨0, _⟩ => by show p.val = if (100000 : Nat) = 1 then 0 else p.val; rw [if_neg (by decide)])

/-- A per-node column repeated across the 64 lanes reads, at (p, q), the column's entry `p`. -/
theorem lanes_apply (y : PerNodeCol) (p : Fin 100000) (q : Fin 64) :
    broadcastInDim S100000x64 ![0, 1] bcast_S100000x1_S100000x64_0_1 y (ix2 p q) = y (ix2 p (0 : Fin 1)) :=
  broadcastInDim_apply _ bcast_S100000x1_S100000x64_0_1 y (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A number repeated once per node reads that number at every node. -/
theorem splat_apply (y : (⟨S_, .f32⟩ : BufTy).Contents (Elt Ideal)) (j : S100000.Idx) :
    broadcastInDim S100000 ![] bcast_S_S100000 y j = y ix0 :=
  broadcastInDim_apply _ bcast_S_S100000 y j ix0 (fun a => a.elim0)

/-- The host's quotient of two per-node vectors, at a node. -/
theorem quotient_apply (a b : PerNode) (j : S100000.Idx) : Host.divf (F := Ideal) (φ := .f32) a b j = Ideal.div (a j) (b j) := rfl

/-- The clamped in-degree at node `p`. -/
theorem clamped_apply (d : Ends) (p : Fin 100000) : clamped d (ix1 p) = clampDeg (degree d) (ix1 p) := by
  unfold clamped clampDeg
  rw [maximumf_apply, splat_apply]
  rfl

/-- The reciprocal column at row `p`. -/
theorem recipCol_apply (d : Ends) (p : Fin 100000) :
    recipCol d (ix2 p (0 : Fin 1)) = Ideal.div (Ideal.ofBits .f32 0x3F800000#32) (clampDeg (degree d) (ix1 p)) := by
  unfold recipCol
  rw [column_apply]
  rw [quotient_apply, splat_apply, clamped_apply]
  rfl

/-- The program's mean is the neighbour sum times the reciprocal of the clamped in-degree. -/
theorem scaled_recip (x : Feat) (s d : Ends) :
    scaled x s d (recipCol d) = meanRecip (n := 100000) (nbrSum x s d) (clampDeg (degree d)) := by
  funext i
  obtain ⟨p, q, rfl⟩ : ∃ (p : Fin 100000) (q : Fin 64), i = ix2 p q := ⟨i 0, i 1, eq_ix2 i⟩
  unfold scaled meanRecip
  rw [mulf_apply]
  refine congrArg (nbrSum x s d (ix2 p q) * ·) ?_
  rw [lanes_apply]
  exact recipCol_apply d p

/-- A bias laid out as a row, read at column `q`. -/
theorem biasRow_apply (b : (⟨S64, .f32⟩ : BufTy).Contents (Elt Ideal)) (q : Fin 64) :
    biasRow b (ix2 (0 : Fin 1) q) = b (ix1 q) :=
  shapeCast_a_1a_apply b shapeCasts_S64_S1x64 (0 : Fin 1) q

/-! ## Both layers as functions of the arguments -/

/-- A 64 x 64 weight matrix. -/
abbrev Weight : Type := (⟨S64x64, .f32⟩ : BufTy).Contents (Elt Ideal)
/-- A bias vector. -/
abbrev Bias : Type := (⟨S64, .f32⟩ : BufTy).Contents (Elt Ideal)

/-- The mean of `x` over each node's in-neighbours, the reciprocal way. -/
def meanOf (x : Feat) (e : Edges) : Feat :=
  meanRecip (n := 100000) (nbrSum x (srcOf e) (dstOf e)) (clampDeg (degree (dstOf e)))

/-- The first layer's output: the hidden array. -/
def hiddenOf (x : Feat) (w1 : Weight) (b2 : Bias) (w3 : Weight) (e : Edges) : Feat :=
  reluLayer (n := 100000) (meanOf x e) x w1 w3 (fun q => b2 (ix1 q))

/-- The second layer's output: the program's result. -/
def resultOf (x : Feat) (w1 : Weight) (b2 : Bias) (w3 w4 : Weight) (b5 : Bias) (w6 : Weight) (e : Edges) : Feat :=
  normLayer (n := 100000) (meanOf (hiddenOf x w1 b2 w3 e) e) (hiddenOf x w1 b2 w3 e) w4 w6 (fun q => b5 (ix1 q))

/-- The quotient spelling of the mean is the same array: a clamped in-degree is never zero. -/
theorem meanDiv_eq_meanOf (x : Feat) (e : Edges) :
    meanDiv (n := 100000) (nbrSum x (srcOf e) (dstOf e)) (clampDeg (degree (dstOf e))) = meanOf x e :=
  (meanRecip_eq_meanDiv _ _ (clampDeg_ne_zero _)).symm

end Cert.KernelIdeal.MeanForms

end
-- ==== Proof.Result.lean ====
/-
  The kernel's program ends with its result at the two layers of the arguments.

  The first layer is the mean of the input features over each node's in-neighbours (the neighbour sum times the
  reciprocal of the clamped in-degree), pushed with the features through the clamped affine layer; the second is the
  same mean of the hidden array, pushed with the hidden array through the row-normalised affine layer. The program ends with its result array at `resultOf` of its arguments: each launch's output array is
  the layer of the arrays the launch finds, and the host operations before each launch leave those arrays at the mean,
  the bias row and the untouched arguments.
-/
import proofs.«177494_j11819749998735_1_alg».proof.Proof.Blocks
import proofs.«177494_j11819749998735_1_alg».proof.Proof.HostRead
import proofs.«177494_j11819749998735_1_alg».proof.Proof.KernelRun
import proofs.«177494_j11819749998735_1_alg».proof.Proof.MeanForms

set_option maxRecDepth 16384

noncomputable section

namespace Cert.KernelIdeal.Result

open Cert.KernelIdeal Cert.KernelIdeal.Gen Cert.KernelIdeal.HostOps Cert.KernelIdeal.HostRead Cert.KernelIdeal.MeanForms
open Idealize.ShloMosaic Idealize.ShloMosaic.TcCoe Idealize.ShloMosaic.ValueIdx Idealize.SL.Sem Cert.Sage

variable (m : (ℓ : Loc nD τ sig) → Buf (Elt Ideal) ℓ) (ρ : Dev nD → PrngReg)

/-- After the first launch its output array holds the hidden array of the arguments. -/
theorem W2_v26 (c : Dev nD) : W2 m ρ c (Proc.devRef .tc main_v26)
    = hiddenOf (m ((c : Thread nD τ).loc main_arg0)) (m ((c : Thread nD τ).loc main_arg1)) (m ((c : Thread nD τ).loc main_arg2))
        (m ((c : Thread nD τ).loc main_arg3)) (m ((c : Thread nD τ).loc main_arg7)) := by
  refine (W2_arr m ρ c 5).trans ((Blocks.final0 (V1 m ρ) c).trans ?_)
  show reluLayer (n := 100000) (W1 m ρ c (Proc.devRef .tc main_v24)) (W1 m ρ c (Proc.devRef .tc main_arg0))
      (W1 m ρ c (Proc.devRef .tc main_arg1)) (W1 m ρ c (Proc.devRef .tc main_arg3))
      (fun q => W1 m ρ c (Proc.devRef .tc main_v25) (ix2 (0 : Fin 1) q)) = _
  rw [W1_v24, W1_arg0, W1_arg1, W1_arg3, W1_v25, scaled_recip]
  simp only [biasRow_apply]
  rfl

/-- The buffers the first launch does not write keep what the first stretch of host operations left. -/
theorem W2_v1 (c : Dev nD) : W2 m ρ c (Proc.devRef .tc main_v1) = srcOf (m ((c : Thread nD τ).loc main_arg7)) :=
  (W2_of_ne m ρ c main_v1 (by decide)).trans (W1_v1 m ρ c)
theorem W2_v3 (c : Dev nD) : W2 m ρ c (Proc.devRef .tc main_v3) = dstOf (m ((c : Thread nD τ).loc main_arg7)) :=
  (W2_of_ne m ρ c main_v3 (by decide)).trans (W1_v3 m ρ c)
theorem W2_v12 (c : Dev nD) : W2 m ρ c (Proc.devRef .tc main_v12) = recipCol (dstOf (m ((c : Thread nD τ).loc main_arg7))) :=
  (W2_of_ne m ρ c main_v12 (by decide)).trans (W1_v12 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-- After the second launch the result array holds `resultOf` of the arguments. -/
theorem W4_v40 (c : Dev nD) : W4 m ρ c (Proc.devRef .tc main_v40)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ((Blocks.final1 (V3 m ρ) c).trans ?_)
  show normLayer (n := 100000) (StableHlo.after hostOps1 (W2 m ρ c) (Proc.devRef .tc main_v38))
      (StableHlo.after hostOps1 (W2 m ρ c) (Proc.devRef .tc main_v26))
      (StableHlo.after hostOps1 (W2 m ρ c) (Proc.devRef .tc main_arg4))
      (StableHlo.after hostOps1 (W2 m ρ c) (Proc.devRef .tc main_arg6))
      (fun q => StableHlo.after hostOps1 (W2 m ρ c) (Proc.devRef .tc main_v39) (ix2 (0 : Fin 1) q)) = _
  rw [after1_v38, after1_v26, after1_arg4, after1_arg6, after1_v39, W2_v26, W2_v1, W2_v3, W2_v12, W2_arg4, W2_arg5, W2_arg6,
    scaled_recip]
  simp only [biasRow_apply]
  rfl

/-- The kernel's program runs and ends with its result array at `resultOf` of its arguments, the arguments unchanged. -/
theorem run : θ_run defs (onTc (τ := τ) (main (F := Ideal))) ⟨m, fun _ => 0, ρ⟩ (fun r => ∀ c : Dev nD,
      r.2.mem ((c.tc : Thread nD τ).loc main_v40)
        = resultOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v40 m ρ c), (h c).2⟩) (Run.run_out m ρ)

end Cert.KernelIdeal.Result

end
-- ==== Proof.RefValue.lean ====
/-
  The reference program's float stages are the two layers of the row-by-row specification, entry by entry.

  Each aggregated array is the neighbour sum divided, row by row, by the in-degree clamped below at one. The hidden
  array is the first layer applied to the first mean and the input features; the output is the second layer applied
  to the second mean and the hidden array. A matrix product's entry is a sum over the 64 contracted positions, the
  weight matrix read transposed; the bias is read at the column; the row norm is the square root of the sum of the
  squared affine entries of the row. The neighbour sums and the in-degrees stay as they are: nothing here looks
  inside them.
-/
import proofs.«177494_j11819749998735_1_alg».proof.Proof.Gen.ReferenceIdeal.Read
import proofs.«177494_j11819749998735_1_alg».proof.Proof.SageSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Sage

variable (x0 : (⟨S100000x64, .f32⟩ : BufTy).Contents (Elt Ideal))
  (x1 : (⟨S64x64, .f32⟩ : BufTy).Contents (Elt Ideal)) (x2 : (⟨S64, .f32⟩ : BufTy).Contents (Elt Ideal))
  (x3 x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S2x1600000, .i32⟩ : BufTy).Contents (Elt Ideal))

/-! ## The means -/

/-- The first divisor at row `p`: the in-degree clamped below at one. -/
theorem v21_ix2 (p : Fin 100000) (q : Fin 64) :
    val_main_v21 (F := Ideal) x7 (ix2 p q) = clampDeg (val_main_v17 (F := Ideal) x7) (ix1 p) := by
  rw [val_main_v21_apply, val_main_v20_apply, val_main_v19_apply, val_main_v18_apply, val_main_cst_3_apply]
  have e : idx_main_v20 (idx_main_v21 (ix2 p q)) = ix1 p :=
    funext fun a => Fin.ext (by match a with | ⟨0, _⟩ => rfl)
  rw [e]
  rfl

/-- The first mean is the neighbour sum over the clamped in-degree. -/
theorem mean0_eq : val_main_v22 (F := Ideal) x0 x7
    = meanDiv (val_main_v13 (F := Ideal) x0 x7) (clampDeg (val_main_v17 (F := Ideal) x7)) := by
  funext i
  obtain ⟨p, q, rfl⟩ : ∃ (p : Fin 100000) (q : Fin 64), i = ix2 p q := ⟨i 0, i 1, eq_ix2 i⟩
  rw [val_main_v22_apply, v21_ix2]
  rfl

/-- The second divisor at row `p`. -/
theorem v49_ix2 (p : Fin 100000) (q : Fin 64) :
    val_main_v49 (F := Ideal) x7 (ix2 p q) = clampDeg (val_main_v45 (F := Ideal) x7) (ix1 p) := by
  rw [val_main_v49_apply, val_main_v48_apply, val_main_v47_apply, val_main_v46_apply, val_main_cst_9_apply]
  have e : idx_main_v48 (idx_main_v49 (ix2 p q)) = ix1 p :=
    funext fun a => Fin.ext (by match a with | ⟨0, _⟩ => rfl)
  rw [e]
  rfl

/-- The second mean is the neighbour sum of the hidden array over the clamped in-degree. -/
theorem mean1_eq : val_main_v50 (F := Ideal) x0 x1 x2 x3 x7
    = meanDiv (val_main_v41 (F := Ideal) x0 x1 x2 x3 x7) (clampDeg (val_main_v45 (F := Ideal) x7)) := by
  funext i
  obtain ⟨p, q, rfl⟩ : ∃ (p : Fin 100000) (q : Fin 64), i = ix2 p q := ⟨i 0, i 1, eq_ix2 i⟩
  rw [val_main_v50_apply, v49_ix2]
  rfl

/-! ## The first layer -/

/-- The product of the first mean with the transposed first weight matrix, entry `(p, q)`. -/
theorem v24_ix2 (p : Fin 100000) (q : Fin 64) :
    val_main_v24 (F := Ideal) x0 x1 x7 (ix2 p q)
      = ∑ k : Fin 64, val_main_v22 (F := Ideal) x0 x7 (ix2 p k) * x1 (ix2 q k) := by
  rw [val_main_v24_apply]
  refine Finset.sum_congr rfl fun k _ => ?_
  have e1 : lidx_main_v24 (ix2 p q) k = ix2 p k := funext fun a => Fin.ext (by match a with | ⟨0, _⟩ => rfl | ⟨1, _⟩ => rfl)
  have e2 : idx_main_v23 (ridx_main_v24 (ix2 p q) k) = ix2 q k := funext fun a => Fin.ext (by match a with | ⟨0, _⟩ => rfl | ⟨1, _⟩ => rfl)
  rw [val_main_v23_apply, e1, e2]

/-- The first bias, spread over the rows, at entry `(p, q)`. -/
theorem v26_ix2 (p : Fin 100000) (q : Fin 64) :
    val_main_v26 (F := Ideal) x2 (ix2 p q) = x2 (ix1 q) := by
  rw [val_main_v26_apply, val_main_v25_apply]
  have e : idx_main_v25 (idx_main_v26 (ix2 p q)) = ix1 q := funext fun a => Fin.ext (by match a with | ⟨0, _⟩ => rfl)
  rw [e]

/-- The product of the features with the transposed second weight matrix, entry `(p, q)`. -/
theorem v29_ix2 (p : Fin 100000) (q : Fin 64) :
    val_main_v29 (F := Ideal) x0 x3 (ix2 p q) = ∑ k : Fin 64, x0 (ix2 p k) * x3 (ix2 q k) := by
  rw [val_main_v29_apply]
  refine Finset.sum_congr rfl fun k _ => ?_
  have e1 : lidx_main_v29 (ix2 p q) k = ix2 p k := funext fun a => Fin.ext (by match a with | ⟨0, _⟩ => rfl | ⟨1, _⟩ => rfl)
  have e2 : idx_main_v28 (ridx_main_v29 (ix2 p q) k) = ix2 q k := funext fun a => Fin.ext (by match a with | ⟨0, _⟩ => rfl | ⟨1, _⟩ => rfl)
  rw [val_main_v28_apply, e1, e2]

/-- The hidden array is the first layer of the first mean and the features. -/
theorem hidden_eq : val_main_v31 (F := Ideal) x0 x1 x2 x3 x7
    = reluLayer (val_main_v22 (F := Ideal) x0 x7) x0 x1 x3 (fun q => x2 (ix1 q)) := by
  funext i
  obtain ⟨p, q, rfl⟩ : ∃ (p : Fin 100000) (q : Fin 64), i = ix2 p q := ⟨i 0, i 1, eq_ix2 i⟩
  rw [val_main_v31_apply, val_main_call0_v0_apply, val_main_call0_cst_apply, val_main_v30_apply, val_main_v27_apply,
    v24_ix2, v26_ix2, v29_ix2, reluLayer_ix2]
  rfl

/-! ## The second layer -/

/-- The product of the second mean with the transposed third weight matrix, entry `(p, q)`. -/
theorem v52_ix2 (p : Fin 100000) (q : Fin 64) :
    val_main_v52 (F := Ideal) x0 x1 x2 x3 x4 x7 (ix2 p q)
      = ∑ k : Fin 64, val_main_v50 (F := Ideal) x0 x1 x2 x3 x7 (ix2 p k) * x4 (ix2 q k) := by
  rw [val_main_v52_apply]
  refine Finset.sum_congr rfl fun k _ => ?_
  have e1 : lidx_main_v52 (ix2 p q) k = ix2 p k := funext fun a => Fin.ext (by match a with | ⟨0, _⟩ => rfl | ⟨1, _⟩ => rfl)
  have e2 : idx_main_v51 (ridx_main_v52 (ix2 p q) k) = ix2 q k := funext fun a => Fin.ext (by match a with | ⟨0, _⟩ => rfl | ⟨1, _⟩ => rfl)
  rw [val_main_v51_apply, e1, e2]

/-- The second bias, spread over the rows, at entry `(p, q)`. -/
theorem v54_ix2 (p : Fin 100000) (q : Fin 64) :
    val_main_v54 (F := Ideal) x5 (ix2 p q) = x5 (ix1 q) := by
  rw [val_main_v54_apply, val_main_v53_apply]
  have e : idx_main_v53 (idx_main_v54 (ix2 p q)) = ix1 q := funext fun a => Fin.ext (by match a with | ⟨0, _⟩ => rfl)
  rw [e]

/-- The product of the hidden array with the transposed fourth weight matrix, entry `(p, q)`. -/
theorem v57_ix2 (p : Fin 100000) (q : Fin 64) :
    val_main_v57 (F := Ideal) x0 x1 x2 x3 x6 x7 (ix2 p q)
      = ∑ k : Fin 64, val_main_v31 (F := Ideal) x0 x1 x2 x3 x7 (ix2 p k) * x6 (ix2 q k) := by
  rw [val_main_v57_apply]
  refine Finset.sum_congr rfl fun k _ => ?_
  have e1 : lidx_main_v57 (ix2 p q) k = ix2 p k := funext fun a => Fin.ext (by match a with | ⟨0, _⟩ => rfl | ⟨1, _⟩ => rfl)
  have e2 : idx_main_v56 (ridx_main_v57 (ix2 p q) k) = ix2 q k := funext fun a => Fin.ext (by match a with | ⟨0, _⟩ => rfl | ⟨1, _⟩ => rfl)
  rw [val_main_v56_apply, e1, e2]

/-- The second layer's affine part, entry `(p, q)`. -/
theorem v58_ix2 (p : Fin 100000) (q : Fin 64) :
    val_main_v58 (F := Ideal) x0 x1 x2 x3 x4 x5 x6 x7 (ix2 p q)
      = affRow (row (val_main_v50 (F := Ideal) x0 x1 x2 x3 x7) p) (row (val_main_v31 (F := Ideal) x0 x1 x2 x3 x7) p)
          x4 x6 (fun q => x5 (ix1 q)) q := by
  rw [val_main_v58_apply, val_main_v55_apply, v52_ix2, v54_ix2, v57_ix2]
  rfl

/-- The second layer's divisor at row `p`: the norm of the affine row, clamped below. -/
theorem v65_ix2 (p : Fin 100000) (q : Fin 64) :
    val_main_v65 (F := Ideal) x0 x1 x2 x3 x4 x5 x6 x7 (ix2 p q)
      = max (Ideal.sqrt (∑ k : Fin 64,
          affRow (row (val_main_v50 (F := Ideal) x0 x1 x2 x3 x7) p) (row (val_main_v31 (F := Ideal) x0 x1 x2 x3 x7) p)
            x4 x6 (fun q => x5 (ix1 q)) k
          * affRow (row (val_main_v50 (F := Ideal) x0 x1 x2 x3 x7) p) (row (val_main_v31 (F := Ideal) x0 x1 x2 x3 x7) p)
            x4 x6 (fun q => x5 (ix1 q)) k))
        (Ideal.ofBits .f32 0x2B8CBCCC#32) := by
  rw [val_main_v65_apply, val_main_v64_apply, val_main_v63_apply, val_main_cst_11_apply, val_main_v62_apply,
    val_main_v61_apply]
  have e : idx_main_v61 (idx_main_v65 (ix2 p q)) = ix1 p := funext fun a => Fin.ext (by match a with | ⟨0, _⟩ => rfl)
  rw [e, val_main_v60_apply, val_main_cst_10_apply]
  have hs : (∑ k : Fin 64, val_main_v59 (F := Ideal) x0 x1 x2 x3 x4 x5 x6 x7 (idx_main_v60 (ix1 p) k))
      = ∑ k : Fin 64,
          affRow (row (val_main_v50 (F := Ideal) x0 x1 x2 x3 x7) p) (row (val_main_v31 (F := Ideal) x0 x1 x2 x3 x7) p)
            x4 x6 (fun q => x5 (ix1 q)) k
          * affRow (row (val_main_v50 (F := Ideal) x0 x1 x2 x3 x7) p) (row (val_main_v31 (F := Ideal) x0 x1 x2 x3 x7) p)
            x4 x6 (fun q => x5 (ix1 q)) k :=
    Finset.sum_congr rfl fun k _ => by
      have e1 : idx_main_v60 (ix1 p) k = ix2 p k := funext fun a => Fin.ext (by match a with | ⟨0, _⟩ => rfl | ⟨1, _⟩ => rfl)
      rw [e1, val_main_v59_apply, v58_ix2]
      rfl
  rw [hs]
  simp only [Ideal.ofBits_def, Ideal.ofBits_zero_f32, zero_add, Ideal.maximumf_def, Ideal.hostUnary_sqrt_def]

/-- The output is the second layer of the second mean and the hidden array. -/
theorem out_eq : val_main_v66 (F := Ideal) x0 x1 x2 x3 x4 x5 x6 x7
    = normLayer (val_main_v50 (F := Ideal) x0 x1 x2 x3 x7) (val_main_v31 (F := Ideal) x0 x1 x2 x3 x7) x4 x6
        (fun q => x5 (ix1 q)) := by
  funext i
  obtain ⟨p, q, rfl⟩ : ∃ (p : Fin 100000) (q : Fin 64), i = ix2 p q := ⟨i 0, i 1, eq_ix2 i⟩
  rw [val_main_v66_apply, v58_ix2, v65_ix2, normLayer_ix2]
  rfl

end Cert.ReferenceIdeal.RefValue

end
-- ==== Proof.RefBridge.lean ====
/-
  The reference's result is the same function of the arguments as the kernel program's.

  The reference gathers, scatters and counts with the same host operations, so its neighbour sums and in-degrees are
  the very terms the kernel's program has; it divides the neighbour sum by the clamped in-degree where the kernel's
  program multiplies by the reciprocal, and a clamped in-degree is at least one, so the two means are one array; its
  two layers are the specification's layers of those means.
-/
import proofs.«177494_j11819749998735_1_alg».proof.Proof.RefValue
import proofs.«177494_j11819749998735_1_alg».proof.Proof.MeanForms

noncomputable section

namespace Cert.ReferenceIdeal.RefBridge

open Cert.ReferenceIdeal.Read Cert.ReferenceIdeal.RefValue
open Cert.KernelIdeal.HostOps Cert.KernelIdeal.MeanForms Cert.Sage Idealize.ShloMosaic Idealize.ShloMosaic.ValueIdx

variable (x0 : Feat) (x1 : Weight) (x2 : Bias) (x3 x4 : Weight) (x5 : Bias) (x6 : Weight) (x7 : Edges)

/-- The reference's first neighbour sum is the shared gather-and-add of the input features. -/
theorem sum0 : val_main_v13 (F := Ideal) x0 x7 = nbrSum x0 (srcOf x7) (dstOf x7) := rfl

/-- Its in-degree is the shared count, both times it computes it. -/
theorem deg0 : val_main_v17 (F := Ideal) x7 = degree (dstOf x7) := rfl
theorem deg1 : val_main_v45 (F := Ideal) x7 = degree (dstOf x7) := rfl

/-- Its second neighbour sum is the shared gather-and-add of its hidden array. -/
theorem sum1 : val_main_v41 (F := Ideal) x0 x1 x2 x3 x7
    = nbrSum (val_main_v31 (F := Ideal) x0 x1 x2 x3 x7) (srcOf x7) (dstOf x7) := rfl

/-- The reference's hidden array is the first layer of the arguments. -/
theorem hidden_ref : val_main_v31 (F := Ideal) x0 x1 x2 x3 x7 = hiddenOf x0 x1 x2 x3 x7 := by
  rw [hidden_eq, mean0_eq, sum0, deg0, meanDiv_eq_meanOf]
  rfl

/-- The reference's result is the second layer of the arguments. -/
theorem result_ref : val_main_v66 (F := Ideal) x0 x1 x2 x3 x4 x5 x6 x7 = resultOf x0 x1 x2 x3 x4 x5 x6 x7 := by
  rw [out_eq, mean1_eq, sum1, deg1, hidden_ref, meanDiv_eq_meanOf]
  rfl

end Cert.ReferenceIdeal.RefBridge

end
-- ==== Proof.lean ====
/-
  A two-layer GraphSAGE network (mean aggregation; the first layer clamped at zero, the second normalised row by row)
  computed two ways: by a program that takes each node's mean over its in-neighbours with plain host operations and runs
  the dense part of each layer — two 64 x 64 matrix products, the bias, the clamp or the normalisation — as a launch
  over twenty blocks of 5000 nodes; and by a reference that is host operations only.

  On the extended reals both end at one function of the arguments. The gathers, the scatter-adds and the in-degree
  count are the same operations in both, so they are carried along unopened. The launches round their operands to a
  shorter format before the products, which is the identity there; a block's rows depend only on the same rows of the
  operands, so the twenty blocks of each launch assemble to the whole-array layer. The one arithmetic difference is the
  mean: the program multiplies the neighbour sum by `1 / max(degree, 1)`, the reference divides it by
  `max(degree, 1)`; the divisor is at least one, hence not zero, and a quotient by a nonzero divisor is the product
  with its inverse whatever the dividend, so no finiteness of the inputs is used.

  The frames of the two kernel programs are the generated ones; the reference's frame is its generated run with the
  result dropped; the idealization rewrote nothing.
-/
import proofs.«177494_j11819749998735_1_alg».proof.Defs
import proofs.«177494_j11819749998735_1_alg».proof.Proof.Gen.Kernel
import proofs.«177494_j11819749998735_1_alg».proof.Proof.Gen.Kernel.Skeleton
import proofs.«177494_j11819749998735_1_alg».proof.Proof.Gen.Kernel.Launch
import proofs.«177494_j11819749998735_1_alg».proof.Proof.Gen.Kernel.Points
import proofs.«177494_j11819749998735_1_alg».proof.Proof.Gen.Kernel.Frame
import proofs.«177494_j11819749998735_1_alg».proof.Proof.Gen.KernelIdeal
import proofs.«177494_j11819749998735_1_alg».proof.Proof.Gen.KernelIdeal.Skeleton
import proofs.«177494_j11819749998735_1_alg».proof.Proof.Gen.KernelIdeal.Launch
import proofs.«177494_j11819749998735_1_alg».proof.Proof.Gen.KernelIdeal.Points
import proofs.«177494_j11819749998735_1_alg».proof.Proof.Gen.KernelIdeal.Frame
import proofs.«177494_j11819749998735_1_alg».proof.Proof.Gen.ReferenceIdeal
import proofs.«177494_j11819749998735_1_alg».proof.Proof.Gen.ReferenceIdeal.Run
import proofs.«177494_j11819749998735_1_alg».proof.Proof.Gen.ReferenceIdeal.Read
import proofs.«177494_j11819749998735_1_alg».proof.Proof.Gen.Pre_finite_inputs
import proofs.«177494_j11819749998735_1_alg».proof.Proof.Result
import proofs.«177494_j11819749998735_1_alg».proof.Proof.RefBridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with their result at the two layers of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v66_eq, Cert.ReferenceIdeal.RefBridge.result_ref, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
